-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x256 .f32
  ∧ IdealRules.sign_bit.Statement Cert.KernelIdeal.S1024x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S256x256 : Shape := ⟨2, ![256, 256]⟩
abbrev S256 : Shape := ⟨1, ![256]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S64x4096x256 .f32) (main_arg1 : FVec F S256x256 .f32) (main_arg2 : FVec F S256 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S64x4096x256 : Shape := ⟨3, ![64, 4096, 256]⟩
abbrev S256x256 : Shape := ⟨2, ![256, 256]⟩
abbrev S256 : Shape := ⟨1, ![256]⟩
abbrev S262144x256 : Shape := ⟨2, ![262144, 256]⟩
abbrev S_ : Shape := ⟨0, ![]⟩
abbrev S256x1 : Shape := ⟨2, ![256, 1]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 24
  | .vmem => 8
  | .smem => 0
  | _ => 0

abbrev bufTy : (tb : Table) → Fin (tcTables nBuf tb) → BufTy
  | .hbm, ⟨0, _⟩ => ⟨S64x4096x256, .f32⟩
  | .hbm, ⟨1, _⟩ => ⟨S256x256, .f32⟩
  | .hbm, ⟨2, _⟩ => ⟨S256, .f32⟩
  | .hbm, ⟨3, _⟩ => ⟨S262144x256, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .bf16⟩
  | .hbm, ⟨18, _⟩ => ⟨S256x256, .f32⟩
  | .hbm, ⟨19, _⟩ => ⟨S256x256, .bf16⟩
  | .hbm, ⟨20, _⟩ => ⟨S1x256, .f32⟩
  | .hbm, ⟨21, _⟩ => ⟨S1x256, .f32⟩
  | .hbm, ⟨22, _⟩ => ⟨S262144x256, .f32⟩
  | .hbm, ⟨23, _⟩ => ⟨S64x4096x256, .f32⟩
  | .local _ .vmem, ⟨0, _⟩ => ⟨S1024x256, .f32⟩
  | .local _ .vmem, ⟨1, _⟩ => ⟨S1024x256, .f32⟩
  | .local _ .vmem, ⟨2, _⟩ => ⟨S256x256, .bf16⟩
  | .local _ .vmem, ⟨3, _⟩ => ⟨S256x256, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x4096x256_S262144x256 : S64x4096x256.ShapeCasts S262144x256
  bcast_S_S256x256 : S_.BroadcastsInDim S256x256 (![] : Fin 0 → Fin S256x256.rank)
  reducesTo_S256x256_S256_d1 : S256x256.ReducesTo [1] S256
  h_S_ : 0 < S_.numel
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  bitsLt_bf16_f32 : FTy.bits .bf16 < FTy.bits .f32
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S262144x256_S64x4096x256 : S262144x256.ShapeCasts S64x4096x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S262144x256.size a
  hwx0_0 : ∀ i : grid0.Coords, EltTy.bits .f32 = 32 ∨ (Rect.block (s := S262144x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S262144x256.size a
  hwx0_5 : ∀ i : grid0.Coords, EltTy.bits .f32 = 32 ∨ (Rect.block (s := S262144x256) S1024x256.size (cc0_transform_5 i) (hinb0_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S256x256 : Shape := ⟨2, ![256, 256]⟩
abbrev S256 : Shape := ⟨1, ![256]⟩
abbrev S262144x256 : Shape := ⟨2, ![262144, 256]⟩
abbrev S_ : Shape := ⟨0, ![]⟩
abbrev S262144 : Shape := ⟨1, ![262144]⟩
abbrev S262144x1 : Shape := ⟨2, ![262144, 1]⟩
abbrev S256x1 : Shape := ⟨2, ![256, 1]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S256x256, .f32⟩
  | .hbm, ⟨2, _⟩ => ⟨S256, .f32⟩
  | .hbm, ⟨3, _⟩ => ⟨S262144x256, .f32⟩
  | .hbm, ⟨4, _⟩ => ⟨S262144x256, .f32⟩
  | .hbm, ⟨5, _⟩ => ⟨S_, .f32⟩
  | .hbm, ⟨6, _⟩ => ⟨S262144x256, .f32⟩
  | .hbm, ⟨7, _⟩ => ⟨S262144x256, .f32⟩
  | .hbm, ⟨8, _⟩ => ⟨S262144x256, .f32⟩
  | .hbm, ⟨9, _⟩ => ⟨S262144x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S262144, .f32⟩
  | .hbm, ⟨18, _⟩ => ⟨S262144x1, .f32⟩
  | .hbm, ⟨19, _⟩ => ⟨S_, .f32⟩
  | .hbm, ⟨20, _⟩ => ⟨S256, .f32⟩
  | .hbm, ⟨21, _⟩ => ⟨S256x1, .f32⟩
  | .hbm, ⟨22, _⟩ => ⟨S262144x256, .f32⟩
  | .hbm, ⟨23, _⟩ => ⟨S262144x256, .f32⟩
  | .hbm, ⟨24, _⟩ => ⟨S262144x256, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S262144x256, .f32⟩
  | .hbm, ⟨29, _⟩ => ⟨S262144x256, .f32⟩
  | .hbm, ⟨30, _⟩ => ⟨S262144x256, .f32⟩
  | .hbm, ⟨31, _⟩ => ⟨S262144x256, .f32⟩
  | .hbm, ⟨32, _⟩ => ⟨S1x256, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S262144x256, .f32⟩
  | .hbm, ⟨39, _⟩ => ⟨S1x256, .f32⟩
  | .hbm, ⟨40, _⟩ => ⟨S262144x256, .f32⟩
  | .hbm, ⟨41, _⟩ => ⟨S262144x256, .f32⟩
  | .hbm, ⟨42, _⟩ => ⟨S64x4096x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]

class Facts₀ : Prop where
  shapeCasts_S64x4096x256_S262144x256 : S64x4096x256.ShapeCasts S262144x256
  bcast_S_S262144x256 : S_.BroadcastsInDim S262144x256 (![] : Fin 0 → Fin S262144x256.rank)
  bcast_S_S256x256 : S_.BroadcastsInDim S256x256 (![] : Fin 0 → Fin S256x256.rank)
  reducesTo_S262144x256_S262144_d1 : S262144x256.ReducesTo [1] S262144
  h_S_ : 0 < S_.numel
  bcast_S262144_S262144x1_0 : S262144.BroadcastsInDim S262144x1 (![0] : Fin 1 → Fin S262144x1.rank)
  reducesTo_S256x256_S256_d1 : S256x256.ReducesTo [1] S256
  bcast_S256_S256x1_0 : S256.BroadcastsInDim S256x1 (![0] : Fin 1 → Fin S256x1.rank)
  bcast_S262144x1_S262144x256_0_1 : S262144x1.BroadcastsInDim S262144x256 (![0, 1] : Fin 2 → Fin S262144x256.rank)
  bcast_S256x1_S256x256_0_1 : S256x1.BroadcastsInDim S256x256 (![0, 1] : Fin 2 → Fin S256x256.rank)
  transposes_S256x1_S1x256_1_0 : S256x1.Transposes [1, 0] S1x256
  bcast_S1x256_S262144x256_0_1 : S1x256.BroadcastsInDim S262144x256 (![0, 1] : Fin 2 → Fin S262144x256.rank)
  bcast_S256_S1x256_1 : S256.BroadcastsInDim S1x256 (![1] : Fin 1 → Fin S1x256.rank)
  shapeCasts_S262144x256_S64x4096x256 : S262144x256.ShapeCasts S64x4096x256
  dot_S262144x256_S256x256_S262144x256_1_1_0_0_n_n_wf : DotDims.WF S262144x256 S256x256 S262144x256 [1] [1] [0] [0] [] []

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf

class Facts : Prop extends Facts₀ where

variable [Facts]
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.LogDomainSpec.lean ====
/-
  The layer both programs compute, as one function of a matrix of inputs and of the prepared weights (imports no program).

  For a row `x` of 256 inputs put `l k = log (|x k| + ε)` (`ε` the single-precision number nearest 1e-8), `M = max_k l k`
  (a fold of `max` from `-∞`) and `e k = exp (l k - M)`. With the weights' row `n` prepared in the same way — scaled
  magnitudes `ew k`, signs `sw k`, largest log-magnitude `mw` — the output at column `n` is

      sign (Σ_k sign (x k) · sw k) · exp (log (Σ_k e k · ew k) + M + mw) + bias.

  The product is a sum of products in the log domain with the signs carried separately. Every operation is the exact one on
  the extended reals; nothing below needs the inputs to be finite, since no law of arithmetic is used that fails at an infinity.
-/
import Idealize.ShloMosaic.Lib.ValueIdx
import Idealize.ShloMosaic.PureOps.Ideal.Laws

noncomputable section

namespace Cert.LogDomain

open Idealize.ShloMosaic Idealize.ShloMosaic.ValueIdx

/-- The log-magnitude of one entry, `log (|v| + ε)`. -/
def logMag (v : EReal) : EReal :=
  Ideal.log (FloatOps.absf (F := Ideal) (φ := .f32) v + Ideal.ofBits .f32 0x322BCC77#32)

/-- The largest log-magnitude of a row of 256 entries: the fold of `max` from `-∞`. -/
def rowMax (row : Fin 256 → EReal) : EReal :=
  (Finset.univ : Finset (Fin 256)).fold max (Ideal.ofBits .f32 0xFF800000#32) (fun k => logMag (row k))

/-- A row's entry scaled by the row's largest magnitude, `exp (l k - M)`. -/
def scaled (row : Fin 256 → EReal) (k : Fin 256) : EReal := Ideal.exp (logMag (row k) - rowMax row)

/-- One output entry from a row of inputs and one prepared row of the weights. -/
def entryOf (xrow ew sw : Fin 256 → EReal) (mw bias : EReal) : EReal :=
  Ideal.sign (∑ k : Fin 256, Ideal.sign (xrow k) * sw k)
    * Ideal.exp (Ideal.log (∑ k : Fin 256, scaled xrow k * ew k) + rowMax xrow + mw) + bias

/-- The whole output matrix: entry `(r, n)` from row `r` of the inputs and row `n` of the prepared weights. -/
def table (X : FVec Ideal ⟨2, ![262144, 256]⟩ .f32) (E Sg : FVec Ideal ⟨2, ![256, 256]⟩ .f32)
    (Mw b : FVec Ideal ⟨1, ![256]⟩ .f32) : FVec Ideal ⟨2, ![262144, 256]⟩ .f32 :=
  fun i => entryOf (fun k => X (ix2 (i 0) k)) (fun k => E (ix2 (i 1) k)) (fun k => Sg (ix2 (i 1) k))
    (Mw (ix1 (i 1))) (b (ix1 (i 1)))

/-- The table at `(r, n)`. -/
theorem table_apply (X : FVec Ideal ⟨2, ![262144, 256]⟩ .f32) (E Sg : FVec Ideal ⟨2, ![256, 256]⟩ .f32)
    (Mw b : FVec Ideal ⟨1, ![256]⟩ .f32) (r : Fin 262144) (n : Fin 256) :
    table X E Sg Mw b (ix2 r n)
      = entryOf (fun k => X (ix2 r k)) (fun k => E (ix2 n k)) (fun k => Sg (ix2 n k)) (Mw (ix1 n)) (b (ix1 n)) := rfl

end Cert.LogDomain

end
-- ==== Proof.KernelBody.lean ====
/-
  What the kernel's body stores at one grid point, entry by entry.

  The body loads a block of 1024 rows of the inputs (`x0`), the transposed scaled weight magnitudes (`x1`, entry
  `(k, n)`), the transposed weight signs (`x2`), the row of the weights' largest log-magnitudes (`x3`) and the bias row
  (`x4`), and stores one block of 1024 × 256 outputs. Read at row `r` and column `n` that block is the layer's entry
  (`Cert.LogDomain.entryOf`) of row `r` of `x0` against column `n` of the prepared weights:

    * the log-magnitudes `log (|x| + ε)` are pointwise; their maximum along a row, kept as a column and broadcast back,
      is at `(r, k)` the fold of `max` over row `r`;
    * the two matrix products into a zero accumulator are, at `(r, n)`, sums over `k` of products of entries `(r, k)`
      and `(k, n)`; rounding an operand to a narrower format is the identity on the extended reals;
    * the sign the body takes — `x` where `|x| > 0` fails, else `-1` or `1` by `x < 0` — is the order's sign at
      every extended real;
    * the rows `x3`, `x4` broadcast down the block are read at their one row.
-/
import proofs.«122507_j4475355922620_1_alg».proof.Proof.Gen.KernelIdeal.Frame
import proofs.«122507_j4475355922620_1_alg».proof.Proof.LibRowOps
import proofs.«122507_j4475355922620_1_alg».proof.Proof.LibPlainDot
import proofs.«122507_j4475355922620_1_alg».proof.Proof.LogDomainSpec
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.LogDomain

theorem hz : (![0, 0] : Fin 2 → Nat) = fun _ => 0 := funext fun a => by fin_cases a <;> rfl

/-- The stored block is the body's arithmetic of the five loaded blocks: every load and the one store go through
    the whole buffer. -/
theorem out_eq (x0 : Vec Ideal S1024x256 .f32) (x1 x2 : Vec Ideal S256x256 .bf16) (x3 x4 : Vec Ideal S1x256 .f32) :
    out0_5 x0 x1 x2 x3 x4 = k0_pay1 (k0_pay3 x0 x2) (k0_pay4 x0 x1 x3) x4 := by
  unfold out0_5
  rw [View.canon_unit_zero hz]
  simp only [View.ld_unit_zero (S := S1024x256) hz, View.ld_unit_zero (S := S256x256) hz, View.ld_unit_zero (S := S1x256) hz]

/-- The block's log-magnitudes, `log (|x| + ε)` entry by entry. -/
def lx (x0 : FVec Ideal S1024x256 .f32) : FVec Ideal S1024x256 .f32 :=
  log (addf (absf x0) (broadcast S1024x256 (Scalar.ofBits .f32 0x322BCC77#32)))

/-- Each row's largest log-magnitude, kept as a column and broadcast back over the row. -/
def col (x0 : FVec Ideal S1024x256 .f32) : FVec Ideal S1024x256 .f32 :=
  broadcastTo S1024x256 (shapeCast S1024x1 (multiReduction .maximumf [1] S1024 (lx x0) 0xFF800000#32 Facts₀.reduces_S1024x256_S1024 (.inl rfl) rfl) Facts₀.shapeCasts_S1024_S1024x1) Facts₀.broadcasts_S1024x1_S1024x256

/-- The order's sign, entry by entry. -/
def sgn (x : FVec Ideal S1024x256 .f32) : FVec Ideal S1024x256 .f32 := fun i => Ideal.sign (x i)

/-- The magnitude part of the body: `exp (log (e · ew) + M + mw)` with `e = exp (l - M)`. -/
theorem pay4_eq (v0 : FVec Ideal S1024x256 .f32) (v23 : FVec Ideal S256x256 .bf16) (v32 : FVec Ideal S1x256 .f32) :
    k0_pay4 v0 v23 v32 = exp (addf (addf (log (matmul dot_S1024x256_S256x256_S1024x256_1_0_0_1_n_n none (truncf .bf16 (exp (subf (lx v0) (col v0))) Facts₀.bitsLt_bf16_f32) v23 (constant S1024x256 .f32 0x00000000#32))) (col v0)) (broadcastTo S1024x256 v32 Facts₀.broadcasts_S1x256_S1024x256)) := by
  unfold k0_pay4 k0_pay2 col lx
  simp only [shapeCast_self]

/-- The sign the body takes of a vector is the order's sign of each entry: at zero the select keeps the entry, which
    is zero; elsewhere `|x| > 0` holds and the inner select gives `-1` below zero and `1` above it. -/
theorem sgn_eq (x : FVec Ideal S1024x256 .f32) :
    select (cmpf .ogt (absf x) (broadcast S1024x256 (Scalar.ofBits .f32 0x00000000#32)))
        (select (cmpf .olt x (constant S1024x256 .f32 0x00000000#32)) (constant S1024x256 .f32 0xBF800000#32)
          (constant S1024x256 .f32 0x3F800000#32)) x = sgn x :=
  funext fun i => Ideal.jnp_sign_eq_sign_f32 (x i)

/-- The sign part of the body: the sign of the product of the inputs' signs with the weights' signs. -/
theorem pay3_eq (v0 : FVec Ideal S1024x256 .f32) (v25 : FVec Ideal S256x256 .bf16) :
    k0_pay3 v0 v25 = sgn (matmul dot_S1024x256_S256x256_S1024x256_1_0_0_1_n_n none (truncf .bf16 (sgn v0) Facts₀.bitsLt_bf16_f32) v25 (constant S1024x256 .f32 0x00000000#32)) := by
  unfold k0_pay3 k0_pay2
  simp only [shapeCast_self, sgn_eq]

/-- The row maximum broadcast back, at `(r, k)`: the largest log-magnitude of row `r`. -/
theorem col_apply (x0 : FVec Ideal S1024x256 .f32) (r : Fin 1024) (k : Fin 256) :
    col x0 (ix2 r k) = rowMax (fun k => x0 (ix2 r k)) := by
  unfold col
  refine (Cert.RowOps.broadcastTo_a1_ab_apply _ _ r k).trans ?_
  refine (Cert.RowOps.shapeCast_a_a1_apply _ _ r 0).trans ?_
  refine (Cert.RowOps.multiReduction_maximumf_row (lx x0) 0xFF800000#32 _ _ _ r).trans ?_
  rfl

/-- A scaled entry of the block, `exp (l (r, k) - M r)`. -/
theorem ex_apply (x0 : FVec Ideal S1024x256 .f32) (r : Fin 1024) (k : Fin 256) :
    (truncf .bf16 (exp (subf (lx x0) (col x0))) Facts₀.bitsLt_bf16_f32 : FVec Ideal S1024x256 .bf16) (ix2 r k)
      = scaled (fun k => x0 (ix2 r k)) k := by
  show Ideal.exp (logMag (x0 (ix2 r k)) - col x0 (ix2 r k)) = _
  rw [col_apply]
  rfl

/-- The magnitude part at `(r, n)`. -/
theorem pay4_apply (v0 : FVec Ideal S1024x256 .f32) (v23 : FVec Ideal S256x256 .bf16) (v32 : FVec Ideal S1x256 .f32)
    (r : Fin 1024) (n : Fin 256) :
    k0_pay4 (F := Ideal) v0 v23 v32 (ix2 r n)
      = Ideal.exp (Ideal.log (∑ k : Fin 256, scaled (fun k => v0 (ix2 r k)) k * v23 (ix2 k n))
          + rowMax (fun k => v0 (ix2 r k)) + v32 (ix2 (0 : Fin 1) n)) := by
  rw [pay4_eq]
  have h1 : matmul dot_S1024x256_S256x256_S1024x256_1_0_0_1_n_n none (truncf .bf16 (exp (subf (lx v0) (col v0))) Facts₀.bitsLt_bf16_f32) v23 (constant S1024x256 .f32 0x00000000#32) (ix2 r n)
      = ∑ k : Fin 256, scaled (fun k => v0 (ix2 r k)) k * v23 (ix2 k n) :=
    (Cert.PlainDot.matmul_plain_apply none _ v23 r n).trans
      (Finset.sum_congr rfl fun k _ => congrArg (· * v23 (ix2 k n)) (ex_apply v0 r k))
  have h3 : broadcastTo S1024x256 v32 Facts₀.broadcasts_S1x256_S1024x256 (ix2 r n) = v32 (ix2 (0 : Fin 1) n) :=
    broadcastTo_1b_ab_apply v32 _ r n
  show Ideal.exp (Ideal.log (matmul dot_S1024x256_S256x256_S1024x256_1_0_0_1_n_n none (truncf .bf16 (exp (subf (lx v0) (col v0))) Facts₀.bitsLt_bf16_f32) v23 (constant S1024x256 .f32 0x00000000#32) (ix2 r n))
      + col v0 (ix2 r n) + broadcastTo S1024x256 v32 Facts₀.broadcasts_S1x256_S1024x256 (ix2 r n)) = _
  rw [h1, col_apply, h3]

/-- The sign part at `(r, n)`. -/
theorem pay3_apply (v0 : FVec Ideal S1024x256 .f32) (v25 : FVec Ideal S256x256 .bf16) (r : Fin 1024) (n : Fin 256) :
    k0_pay3 (F := Ideal) v0 v25 (ix2 r n) = Ideal.sign (∑ k : Fin 256, Ideal.sign (v0 (ix2 r k)) * v25 (ix2 k n)) := by
  rw [pay3_eq]
  show Ideal.sign (matmul dot_S1024x256_S256x256_S1024x256_1_0_0_1_n_n none (truncf .bf16 (sgn v0) Facts₀.bitsLt_bf16_f32) v25 (constant S1024x256 .f32 0x00000000#32) (ix2 r n)) = _
  exact congrArg Ideal.sign (Cert.PlainDot.matmul_plain_apply none _ v25 r n)

/-- THE STORED BLOCK at row `r` and column `n`: the layer's entry of row `r` of the input block against column `n` of
    the prepared weights. -/
theorem out_apply (x0 : FVec Ideal S1024x256 .f32) (x1 x2 : FVec Ideal S256x256 .bf16) (x3 x4 : FVec Ideal S1x256 .f32)
    (r : Fin 1024) (n : Fin 256) :
    out0_5 (F := Ideal) x0 x1 x2 x3 x4 (ix2 r n)
      = entryOf (fun k => x0 (ix2 r k)) (fun k => x1 (ix2 k n)) (fun k => x2 (ix2 k n)) (x3 (ix2 (0 : Fin 1) n)) (x4 (ix2 (0 : Fin 1) n)) := by
  rw [out_eq]
  unfold k0_pay1
  simp only [shapeCast_self]
  show k0_pay3 (F := Ideal) x0 x2 (ix2 r n) * k0_pay4 (F := Ideal) x0 x1 x3 (ix2 r n) + broadcastTo S1024x256 x4 Facts₀.broadcasts_S1x256_S1024x256 (ix2 r n) = _
  rw [pay3_apply, pay4_apply, broadcastTo_1b_ab_apply x4 _ r n]
  rfl

end Cert.KernelIdeal.Body

end
-- ==== Proof.KernelArrays.lean ====
/-
  The arrays the kernel's grid finds: what the host lines before the launch leave in each operand.

  Before the launch the program flattens the inputs to a matrix of 262144 rows, and prepares the weights: their
  log-magnitudes `log (|w| + ε)`, each row's largest one, the magnitudes scaled by it, and the signs. These are the very
  operations, in the very order, that the reference applies to the weights, so each prepared operand is a layout change
  (a transpose, a cast to one row) of the corresponding stage of the reference — a rounding to a narrower format being
  the identity on the extended reals. The weight-side arithmetic is therefore never opened: both programs carry the same
  three vectors.
-/
import proofs.«122507_j4475355922620_1_alg».proof.Proof.Gen.KernelIdeal.Frame
import proofs.«122507_j4475355922620_1_alg».proof.Proof.Gen.ReferenceIdeal.Read
import Idealize.ShloMosaic.Lib.StableHlo.Run
import Idealize.ShloMosaic.Lib.Pipeline.Value

noncomputable section

namespace Cert.KernelIdeal.Arrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The inputs as a matrix: the argument flattened to 262144 rows of 256. -/
theorem V_v0 (c : Dev nD) : (V m c main_v0 : S262144x256.Idx → EReal)
    = shapeCast S262144x256 (m ((c : Thread nD τ).loc main_arg0)) Facts₀.shapeCasts_S64x4096x256_S262144x256 := by
  show StableHlo.after hostOps0 (fun b => m (c, b)) (Proc.devRef .tc main_v0) = _
  after_results
  rfl

/-- The bias as one row. -/
theorem V_v16 (c : Dev nD) : (V m c main_v16 : S1x256.Idx → EReal)
    = shapeCast S1x256 (m ((c : Thread nD τ).loc main_arg2)) Facts₀.shapeCasts_S256_S1x256 := by
  show StableHlo.after hostOps0 (fun b => m (c, b)) (Proc.devRef .tc main_v16) = _
  after_results
  rfl

/-- The weights' largest log-magnitudes, one per row of the weights, as one row. -/
theorem V_v15 (c : Dev nD) : (V m c main_v15 : S1x256.Idx → EReal)
    = shapeCast S1x256 (Cert.ReferenceIdeal.Read.val_main_v13 (F := Ideal) (m ((c : Thread nD τ).loc main_arg1))) Facts₀.shapeCasts_S256_S1x256 := by
  show StableHlo.after hostOps0 (fun b => m (c, b)) (Proc.devRef .tc main_v15) = _
  after_results
  rfl

/-- The weights' signs, transposed. -/
theorem V_v14 (c : Dev nD) : (V m c main_v14 : S256x256.Idx → EReal)
    = truncf (F := Ideal) .bf16 (transpose S256x256 [1, 0] (Cert.ReferenceIdeal.Read.val_main_v10 (F := Ideal) (m ((c : Thread nD τ).loc main_arg1))) Facts₀.transposes_S256x256_S256x256_1_0) Facts₀.bitsLt_bf16_f32 := by
  show StableHlo.after hostOps0 (fun b => m (c, b)) (Proc.devRef .tc main_v14) = _
  after_results
  rfl

/-- The weights' scaled magnitudes, transposed. -/
theorem V_v12 (c : Dev nD) : (V m c main_v12 : S256x256.Idx → EReal)
    = truncf (F := Ideal) .bf16 (transpose S256x256 [1, 0] (Cert.ReferenceIdeal.Read.val_main_v20 (F := Ideal) (m ((c : Thread nD τ).loc main_arg1))) Facts₀.transposes_S256x256_S256x256_1_0) Facts₀.bitsLt_bf16_f32 := by
  show StableHlo.after hostOps0 (fun b => m (c, b)) (Proc.devRef .tc main_v12) = _
  after_results
  rfl

end Cert.KernelIdeal.Arrays

end
-- ==== Proof.KernelValue.lean ====
/-
  The kernel program's result as one function of its arguments.

  The grid has 256 points; point `t` reads rows `1024 t … 1024 t + 1023` of the flattened inputs and the whole of each
  prepared weight operand, and writes back rows `1024 t … 1024 t + 1023` of the output matrix. Row `r` of the block a
  point stores is the layer's entry of row `1024 t + r` of the inputs (`Cert.KernelIdeal.Body.out_apply`), so every
  write-back is a block of ONE matrix, the layer's table (`Cert.LogDomain.table`) of the flattened inputs and the
  prepared weights; the 256 blocks cover the 262144 rows (row `i` lies in block `i / 1024`), so after the grid the
  output array is that table, and the host line after the launch reshapes it to the result's three axes.
-/
import proofs.«122507_j4475355922620_1_alg».proof.Proof.Gen.KernelIdeal.Frame
import proofs.«122507_j4475355922620_1_alg».proof.Proof.Gen.ReferenceIdeal.Read
import proofs.«122507_j4475355922620_1_alg».proof.Proof.KernelBody
import proofs.«122507_j4475355922620_1_alg».proof.Proof.KernelArrays
import proofs.«122507_j4475355922620_1_alg».proof.Proof.LogDomainSpec
import Idealize.ShloMosaic.Lib.ValueLayout
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.LogDomain
open Idealize.ShloMosaic.Pipeline (Dat)

variable (m : (ℓ : Loc nD τ sig) → Buf (Elt Ideal) ℓ) (ρ : Dev nD → PrngReg)

/-- The printed index maps over the grid: the inputs' and the output's windows move down the rows with the point, one
    block per point; the four weight-side windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point is one of 256. -/
theorem t_lt (t : Fin cfg0.N) : t.val < 256 := by
  have h : t.val < grid0.N := t.isLt
  have e : grid0.N = 256 := N_0
  omega

/-- Row `r` of the block at point `t` is row `1024 t + r` of the matrix. -/
def rowOf (t : Fin cfg0.N) (r : Fin 1024) : Fin 262144 := ⟨t.val * 1024 + r.val, by have := t_lt t; have := r.isLt; omega⟩

/-- The inputs' block at point `t`, at `(r, k)`: the flattened inputs at row `1024 t + r`. -/
theorem blk0 (c : Dev nD) (t : Fin cfg0.N) (r : Fin 1024) (k : Fin 256) :
    (iblk m c 0 t : FVec Ideal S1024x256 .f32) (ix2 r k) = (V m c main_v0 : S262144x256.Idx → EReal) (ix2 (rowOf t r) k) := by
  obtain ⟨e0, e1, -⟩ := idx_facts t
  unfold iblk
  rw [View.read_apply]
  show V m c main_v0 _ = V m c main_v0 _
  refine congrArg (V m c main_v0) ?_
  funext a; apply Fin.ext
  match a with
  | ⟨0, _⟩ => show win0_0.index t (0 : Fin 2) * 1024 + 1 * r.val = t.val * 1024 + r.val; rw [e0]; omega
  | ⟨1, _⟩ => show win0_0.index t (1 : Fin 2) * 256 + 1 * k.val = k.val; rw [e1]; omega

/-- The scaled-magnitudes block is the whole operand at every point. -/
theorem blk1 (c : Dev nD) (t : Fin cfg0.N) (k n : Fin 256) :
    (iblk m c 1 t : FVec Ideal S256x256 .bf16) (ix2 k n) = (V m c main_v12 : S256x256.Idx → EReal) (ix2 k n) := by
  obtain ⟨-, -, e0, e1, -⟩ := idx_facts t
  unfold iblk
  rw [View.read_apply]
  show V m c main_v12 _ = V m c main_v12 _
  refine congrArg (V m c main_v12) ?_
  funext a; apply Fin.ext
  match a with
  | ⟨0, _⟩ => show win0_1.index t (0 : Fin 2) * 256 + 1 * k.val = k.val; rw [e0]; omega
  | ⟨1, _⟩ => show win0_1.index t (1 : Fin 2) * 256 + 1 * n.val = n.val; rw [e1]; omega

/-- The signs block is the whole operand at every point. -/
theorem blk2 (c : Dev nD) (t : Fin cfg0.N) (k n : Fin 256) :
    (iblk m c 2 t : FVec Ideal S256x256 .bf16) (ix2 k n) = (V m c main_v14 : S256x256.Idx → EReal) (ix2 k n) := by
  obtain ⟨-, -, -, -, e0, e1, -⟩ := idx_facts t
  unfold iblk
  rw [View.read_apply]
  show V m c main_v14 _ = V m c main_v14 _
  refine congrArg (V m c main_v14) ?_
  funext a; apply Fin.ext
  match a with
  | ⟨0, _⟩ => show win0_2.index t (0 : Fin 2) * 256 + 1 * k.val = k.val; rw [e0]; omega
  | ⟨1, _⟩ => show win0_2.index t (1 : Fin 2) * 256 + 1 * n.val = n.val; rw [e1]; omega

/-- The row of largest log-magnitudes is the whole operand at every point. -/
theorem blk3 (c : Dev nD) (t : Fin cfg0.N) (n : Fin 256) :
    (iblk m c 3 t : FVec Ideal S1x256 .f32) (ix2 (0 : Fin 1) n) = (V m c main_v15 : S1x256.Idx → EReal) (ix2 (0 : Fin 1) n) := by
  obtain ⟨-, -, -, -, -, -, e0, e1, -⟩ := idx_facts t
  unfold iblk
  rw [View.read_apply]
  show V m c main_v15 _ = V m c main_v15 _
  refine congrArg (V m c main_v15) ?_
  funext a; apply Fin.ext
  match a with
  | ⟨0, _⟩ => show win0_3.index t (0 : Fin 2) * 1 + 1 * (0 : Fin 1).val = (0 : Fin 1).val; rw [e0]; rfl
  | ⟨1, _⟩ => show win0_3.index t (1 : Fin 2) * 256 + 1 * n.val = n.val; rw [e1]; omega

/-- The bias row is the whole operand at every point. -/
theorem blk4 (c : Dev nD) (t : Fin cfg0.N) (n : Fin 256) :
    (iblk m c 4 t : FVec Ideal S1x256 .f32) (ix2 (0 : Fin 1) n) = (V m c main_v16 : S1x256.Idx → EReal) (ix2 (0 : Fin 1) n) := by
  obtain ⟨-, -, -, -, -, -, -, -, e0, e1, -⟩ := idx_facts t
  unfold iblk
  rw [View.read_apply]
  show V m c main_v16 _ = V m c main_v16 _
  refine congrArg (V m c main_v16) ?_
  funext a; apply Fin.ext
  match a with
  | ⟨0, _⟩ => show win0_4.index t (0 : Fin 2) * 1 + 1 * (0 : Fin 1).val = (0 : Fin 1).val; rw [e0]; rfl
  | ⟨1, _⟩ => show win0_4.index t (1 : Fin 2) * 256 + 1 * n.val = n.val; rw [e1]; omega

/-- Entry `(r, n)` of the output's block at point `t` sits at `(1024 t + r, n)` of the output matrix. -/
theorem emb5 (t : Fin cfg0.N) (r : Fin 1024) (n : Fin 256) :
    ((cfg0.win 5).blk t).view.emb (ix2 r n) = (ix2 (rowOf t r) n : S262144x256.Idx) := by
  obtain ⟨-, -, -, -, -, -, -, -, -, -, e0, e1⟩ := idx_facts t
  funext a; apply Fin.ext
  match a with
  | ⟨0, _⟩ => show win0_5.index t (0 : Fin 2) * 1024 + 1 * r.val = t.val * 1024 + r.val; rw [e0]; omega
  | ⟨1, _⟩ => show win0_5.index t (1 : Fin 2) * 256 + 1 * n.val = n.val; rw [e1]; omega

/-- The weights' magnitudes scaled by their row's largest one, entry `(n, k)`: the vector both programs carry. -/
abbrev wScaled (c : Dev nD) : FVec Ideal ⟨2, ![256, 256]⟩ .f32 := Cert.ReferenceIdeal.Read.val_main_v20 (F := Ideal) (m ((c : Thread nD τ).loc main_arg1))
/-- The weights' signs, entry `(n, k)`. -/
abbrev wSign (c : Dev nD) : FVec Ideal ⟨2, ![256, 256]⟩ .f32 := Cert.ReferenceIdeal.Read.val_main_v10 (F := Ideal) (m ((c : Thread nD τ).loc main_arg1))
/-- The largest log-magnitude of each row of the weights. -/
abbrev wMax (c : Dev nD) : FVec Ideal ⟨1, ![256]⟩ .f32 := Cert.ReferenceIdeal.Read.val_main_v13 (F := Ideal) (m ((c : Thread nD τ).loc main_arg1))

/-- The transposed scaled magnitudes at `(k, n)` are the scaled magnitudes at `(n, k)`. -/
theorem w12_at (c : Dev nD) (k n : Fin 256) : (V m c main_v12 : S256x256.Idx → EReal) (ix2 k n) = wScaled m c (ix2 n k) := by
  rw [Cert.KernelIdeal.Arrays.V_v12]
  show transpose S256x256 [1, 0] (wScaled m c) Facts₀.transposes_S256x256_S256x256_1_0 (ix2 k n) = _
  exact transpose_ix2_apply _ _ k n

/-- The transposed signs at `(k, n)` are the signs at `(n, k)`. -/
theorem w14_at (c : Dev nD) (k n : Fin 256) : (V m c main_v14 : S256x256.Idx → EReal) (ix2 k n) = wSign m c (ix2 n k) := by
  rw [Cert.KernelIdeal.Arrays.V_v14]
  show transpose S256x256 [1, 0] (wSign m c) Facts₀.transposes_S256x256_S256x256_1_0 (ix2 k n) = _
  exact transpose_ix2_apply _ _ k n

/-- The one row of largest log-magnitudes at column `n` is entry `n` of the vector. -/
theorem w15_at (c : Dev nD) (n : Fin 256) : (V m c main_v15 : S1x256.Idx → EReal) (ix2 (0 : Fin 1) n) = wMax m c (ix1 n) := by
  rw [Cert.KernelIdeal.Arrays.V_v15]
  exact shapeCast_a_1a_apply _ _ 0 n

/-- The bias row at column `n` is entry `n` of the bias. -/
theorem w16_at (c : Dev nD) (n : Fin 256) : (V m c main_v16 : S1x256.Idx → EReal) (ix2 (0 : Fin 1) n) = (m ((c : Thread nD τ).loc main_arg2) : S256.Idx → EReal) (ix1 n) := by
  rw [Cert.KernelIdeal.Arrays.V_v16]
  exact shapeCast_a_1a_apply _ _ 0 n

/-- The output matrix: the layer's table of the flattened inputs and the prepared weights. -/
abbrev T (c : Dev nD) : S262144x256.Idx → EReal :=
  table (V m c main_v0) (wScaled m c) (wSign m c) (wMax m c) (m ((c : Thread nD τ).loc main_arg2))

/-- WHAT POINT `t` WRITES BACK is block `t` of the table: entry `(r, n)` of the stored block is the layer's entry of row
    `1024 t + r` of the inputs against row `n` of the prepared weights. -/
theorem flushed_eq (c : Dev nD) (t : Fin cfg0.N) :
    (dats m 0 c).flushed 5 t = ((cfg0.win 5).blk t).view.read (Elt Ideal) (T m c) := by
  show (cfg0.win 5).cut (grid0.coords t) ((dats m 0 c).after 5 t) = _
  rw [after0_5]
  funext j
  obtain ⟨r, n, rfl⟩ : ∃ (r : Fin 1024) (n : Fin 256), j = ix2 r n := ⟨j 0, j 1, eq_ix2 j⟩
  show out0_5 (F := Ideal) (iblk m c 0 t) (iblk m c 1 t) (iblk m c 2 t) (iblk m c 3 t) (iblk m c 4 t) (ix2 r n)
    = T m c (((cfg0.win 5).blk t).view.emb (ix2 r n))
  rw [emb5]
  refine (Cert.KernelIdeal.Body.out_apply (iblk m c 0 t) (iblk m c 1 t) (iblk m c 2 t) (iblk m c 3 t) (iblk m c 4 t) r n).trans ?_
  have a0 : (fun k : Fin 256 => (iblk m c 0 t : FVec Ideal S1024x256 .f32) (ix2 r k)) = fun k => (V m c main_v0 : S262144x256.Idx → EReal) (ix2 (rowOf t r) k) :=
    funext fun k => blk0 m c t r k
  have a1 : (fun k : Fin 256 => (iblk m c 1 t : FVec Ideal S256x256 .bf16) (ix2 k n)) = fun k => wScaled m c (ix2 n k) :=
    funext fun k => (blk1 m c t k n).trans (w12_at m c k n)
  have a2 : (fun k : Fin 256 => (iblk m c 2 t : FVec Ideal S256x256 .bf16) (ix2 k n)) = fun k => wSign m c (ix2 n k) :=
    funext fun k => (blk2 m c t k n).trans (w14_at m c k n)
  have a3 := (blk3 m c t n).trans (w15_at m c n)
  have a4 := (blk4 m c t n).trans (w16_at m c n)
  rw [a0, a1, a2, a3, a4]
  rfl

/-- An index of the output matrix is in point `t`'s block iff each coordinate is in the block's range on its axis. -/
theorem mem_blk (t : Fin cfg0.N) (i : S262144x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v17).slice (win0_5.rect t)).set ↔ _
  rw [View.set_slice_whole, Rect.mem_set_unit]
  exact Iff.rfl

/-- Every index of the output matrix is in some point's block: row `i` in block `i / 1024`. -/
theorem cover (i : S262144x256.Idx) : ∃ t : Fin cfg0.N, (cfg0.win 5).flush t = true ∧ i ∈ ((cfg0.win 5).blk t).view.set := by
  have h0 : (i 0).val < 262144 := (i 0).isLt
  have h1 : (i 1).val < 256 := (i 1).isLt
  have hN : grid0.N = 256 := N_0
  have ht : (i 0).val / 1024 < cfg0.N := by show _ < grid0.N; omega
  obtain ⟨-, -, -, -, -, -, -, -, -, -, e0, e1⟩ := idx_facts ⟨(i 0).val / 1024, ht⟩
  refine ⟨⟨(i 0).val / 1024, ht⟩, flush0_5 _, ?_⟩
  rw [mem_blk]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, ht⟩ (1 : Fin 2) * 256 ≤ (i 1).val ∧ (i 1).val < win0_5.index ⟨(i 0).val / 1024, ht⟩ (1 : Fin 2) * 256 + 256
    rw [e1]; omega

/-- THE OUTPUT ARRAY after the grid is the table. -/
theorem final (c : Dev nD) : (dats m 0 c).arrAt 5 cfg0.N = T m c :=
  (dats m 0 c).arrAt_eq_of_cover 5 (T m c) (fun t _ => flushed_eq m c t) cover

/-- The host line after the launch reshapes the output matrix to the result's three axes. -/
theorem tail_eq (c : Dev nD) :
    Pipeline.afterTail₀ cfgs (dats m) 0 (V0 m) [hostOps1] c main_v18
      = shapeCast S64x4096x256 (T m c) Facts₀.shapeCasts_S262144x256_S64x4096x256 := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17) = T m c :=
    (Pipeline.withArrays_arr spec0 launch0.win.arr_inj c _ _ 5).trans (final m c)
  rw [hw]
  rfl

/-- The kernel program's result, a function of its three arguments: the table of the flattened inputs, reshaped. -/
abbrev result (c : Dev nD) : Buf (Elt Ideal) ((c.tc : Thread nD τ).loc main_v18) :=
  shapeCast S64x4096x256 (table (shapeCast S262144x256 (m ((c : Thread nD τ).loc main_arg0)) Facts₀.shapeCasts_S64x4096x256_S262144x256)
    (wScaled m c) (wSign m c) (wMax m c) (m ((c : Thread nD τ).loc main_arg2))) Facts₀.shapeCasts_S262144x256_S64x4096x256

/-- The table over the array the grid found is the table over the flattened argument. -/
theorem result_eq (c : Dev nD) : shapeCast S64x4096x256 (T m c) Facts₀.shapeCasts_S262144x256_S64x4096x256 = result m c := by
  unfold T result
  rw [Cert.KernelIdeal.Arrays.V_v0]

/-- THE RUN, READ: every weakly fair execution ends with the result at `result` and the arguments unchanged. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v18 (Pipeline.mem_restRefs_of main_v18 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue
end
-- ==== Proof.LibHostRowMax.lean ====
/-
  The host's maximum along the rows of a two-axis array, read at a row (program-independent; imports only the library).

  A one-operand reduction with a maximum body over axis 1 of an `[a, b]` array, started from a scalar initial value,
  is at row `i` the fold of `max` over that row's entries `(i, k)` from the initial value, in any order: the
  maximum is commutative and associative on the extended reals, and the indices that drop to `i` are exactly the
  row's. This is the same fold a vector unit's row maximum computes, so the two meet as one term.
-/
import Idealize.ShloMosaic.Lib.ValueIdx
import Idealize.ShloMosaic.PureOps.Ideal.Laws

noncomputable section

namespace Cert.HostRowMax

open Idealize.ShloMosaic Idealize.ShloMosaic.ValueIdx

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values the host's reduction with a maximum body along the rows of an `[a, b]` array, from the
    scalar initial value `init`, is at row `i` the fold of `max` over that row's entries from `init`'s value. -/
theorem hostReduce_max_row {a b : ℕ} {φ : FTy} (X : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce (FloatOps.maximumf (F := Ideal) (φ := φ)) X init h' hu (ix1 i)
      = (Finset.univ : Finset (Fin b)).fold max (init ix0) (fun k => X (ix2 i k)) := by
  refine (Host.reduce_eq_fold_single (FloatOps.maximumf (F := Ideal) (φ := φ)) X init h' h hu (ix1 i)).trans ?_
  have hf : (X ∘ h.lift (ix1 i)) = fun k : Fin b => X (ix2 i k) := funext fun k => congrArg X (lift_row h i k)
  rw [hf, eq_ix0 (Shape.Idx.first hu)]
  rfl

end Cert.HostRowMax

end
-- ==== Proof.RefValue.lean ====
/-
  The reference's stages read at an entry: the matrix the reference reshapes into its result is the layer's table.

  Each line of the reference is read at an index from its operands at an index. The two maxima along the rows are
  folds of `max`; the inputs' one is opened here (row `r` of the log-magnitudes from `-∞`), the weights' one is
  carried unopened, as are the weights' scaled magnitudes and signs. The two general products contract the second
  axis of both operands, so at `(r, n)` they sum over `k` the products of entries `(r, k)` and `(n, k)`; the columns and
  rows broadcast back are read at the one coordinate they depend on.
-/
import proofs.«122507_j4475355922620_1_alg».proof.Proof.Gen.ReferenceIdeal.Read
import proofs.«122507_j4475355922620_1_alg».proof.Proof.LibHostRowMax
import proofs.«122507_j4475355922620_1_alg».proof.Proof.LogDomainSpec

noncomputable section

namespace Cert.ReferenceIdeal.RefValue

open Cert.ReferenceIdeal Cert.ReferenceIdeal.Read Idealize.ShloMosaic Idealize.ShloMosaic.ValueIdx Cert.LogDomain

/-- A log-magnitude of the flattened inputs. -/
theorem v4_at (x0 : FVec Ideal S64x4096x256 .f32) (j : S262144x256.Idx) :
    val_main_v4 (F := Ideal) x0 j = logMag (val_main_v0 (F := Ideal) x0 j) := rfl

/-- The largest log-magnitude of row `r` of the flattened inputs. -/
theorem v11_at (x0 : FVec Ideal S64x4096x256 .f32) (r : Fin 262144) :
    val_main_v11 (F := Ideal) x0 (ix1 r) = rowMax (fun k => val_main_v0 (F := Ideal) x0 (ix2 r k)) := by
  unfold val_main_v11
  refine (Cert.HostRowMax.hostReduce_max_row (val_main_v4 (F := Ideal) x0) (val_main_cst_1 (F := Ideal)) _ (by decide) _ r).trans ?_
  rfl

/-- A scaled magnitude of the flattened inputs, `exp (l (r, k) - M r)`. -/
theorem v17_at (x0 : FVec Ideal S64x4096x256 .f32) (r : Fin 262144) (k : Fin 256) :
    val_main_v17 (F := Ideal) x0 (ix2 r k) = scaled (fun k => val_main_v0 (F := Ideal) x0 (ix2 r k)) k := by
  rw [val_main_v17_apply, val_main_v16_apply, val_main_v15_apply, val_main_v12_apply, v4_at]
  have e : idx_main_v12 (idx_main_v15 (ix2 r k)) = ix1 r := funext fun a => Fin.ext (by match a with | ⟨0, _⟩ => rfl)
  rw [e, v11_at]
  rfl

/-- The reference's matrix at `(r, n)`: the layer's entry of row `r` of the flattened inputs against row `n` of the
    prepared weights. -/
theorem v34_at (x0 : FVec Ideal S64x4096x256 .f32) (x1 : FVec Ideal S256x256 .f32) (x2 : FVec Ideal S256 .f32)
    (r : Fin 262144) (n : Fin 256) :
    val_main_v34 (F := Ideal) x0 x1 x2 (ix2 r n)
      = entryOf (fun k => val_main_v0 (F := Ideal) x0 (ix2 r k)) (fun k => val_main_v20 (F := Ideal) x1 (ix2 n k))
          (fun k => val_main_v10 (F := Ideal) x1 (ix2 n k)) (val_main_v13 (F := Ideal) x1 (ix1 n)) (x2 (ix1 n)) := by
  have el : ∀ k : Fin 256, lidx_main_v21 (ix2 r n) k = ix2 r k := fun k => funext fun a => Fin.ext (by
    match a with | ⟨0, _⟩ => rfl | ⟨1, _⟩ => rfl)
  have er : ∀ k : Fin 256, ridx_main_v21 (ix2 r n) k = ix2 n k := fun k => funext fun a => Fin.ext (by
    match a with | ⟨0, _⟩ => rfl | ⟨1, _⟩ => rfl)
  have el' : ∀ k : Fin 256, lidx_main_v28 (ix2 r n) k = ix2 r k := fun k => funext fun a => Fin.ext (by
    match a with | ⟨0, _⟩ => rfl | ⟨1, _⟩ => rfl)
  have er' : ∀ k : Fin 256, ridx_main_v28 (ix2 r n) k = ix2 n k := fun k => funext fun a => Fin.ext (by
    match a with | ⟨0, _⟩ => rfl | ⟨1, _⟩ => rfl)
  have e23 : idx_main_v12 (idx_main_v23 (ix2 r n)) = ix1 r := funext fun a => Fin.ext (by match a with | ⟨0, _⟩ => rfl)
  have e26 : idx_main_v14 (idx_main_v25 (idx_main_v26 (ix2 r n))) = ix1 n := funext fun a => Fin.ext (by
    match a with | ⟨0, _⟩ => rfl)
  have e33 : idx_main_v32 (idx_main_v33 (ix2 r n)) = ix1 n := funext fun a => Fin.ext (by match a with | ⟨0, _⟩ => rfl)
  rw [val_main_v34_apply, val_main_v31_apply, val_main_v29_apply, val_main_v28_apply, val_main_v30_apply,
    val_main_v27_apply, val_main_v24_apply, val_main_v22_apply, val_main_v21_apply, val_main_v23_apply,
    val_main_v12_apply, val_main_v26_apply, val_main_v25_apply, val_main_v14_apply, val_main_v33_apply,
    val_main_v32_apply, e23, e26, e33, v11_at]
  simp only [el, er, el', er', v17_at, val_main_v5_apply]
  rfl

/-- THE REFERENCE'S MATRIX is the layer's table of the flattened inputs and the prepared weights. -/
theorem stage_eq (x0 : FVec Ideal S64x4096x256 .f32) (x1 : FVec Ideal S256x256 .f32) (x2 : FVec Ideal S256 .f32) :
    val_main_v34 (F := Ideal) x0 x1 x2
      = table (val_main_v0 (F := Ideal) x0) (val_main_v20 (F := Ideal) x1) (val_main_v10 (F := Ideal) x1)
          (val_main_v13 (F := Ideal) x1) x2 := by
  funext i
  obtain ⟨r, n, rfl⟩ : ∃ (r : Fin 262144) (n : Fin 256), i = ix2 r n := ⟨i 0, i 1, eq_ix2 i⟩
  rw [v34_at, table_apply]

end Cert.ReferenceIdeal.RefValue

end
-- ==== Proof.lean ====
/-
  The two programs compute one layer: a matrix product carried out in the log domain with the signs tracked apart.

  For inputs `x` (flattened to 262144 rows of 256), weights `w` (256 rows of 256) and a bias `b`, with
  `l = log (|·| + ε)`, `M` a row's largest `l` and `e = exp (l - M)`, both programs produce at row `r` and column `n`

      sign (Σ_k sign x(r,k) · sign w(n,k)) · exp (log (Σ_k e_x(r,k) · e_w(n,k)) + M_x(r) + M_w(n)) + b(n).

  The kernel prepares the weight side on the host, launches a grid of 256 points of 1024 rows each, and reshapes the
  output; the reference does the same arithmetic on whole arrays. On the extended reals the two differ only in layout:
  a transpose of the prepared weights (met by a plain product against a product contracting both second axes), a
  rounding to a narrower format (the identity), the tiling of the rows (a sum and a maximum along a row do not see it),
  and the spelling of the sign (the kernel's select form is the order's sign at every extended real). No law that fails
  at an infinity is used, so the precondition is never opened.

  The frames of the two kernel programs are the generated ones; the reference's frame is its generated run with the
  result dropped. The idealization's ledger has two entries, both the sign-bit rule at the body's block shape.
-/
import proofs.«122507_j4475355922620_1_alg».proof.Defs
import proofs.«122507_j4475355922620_1_alg».proof.Proof.Gen.Kernel
import proofs.«122507_j4475355922620_1_alg».proof.Proof.Gen.Kernel.Skeleton
import proofs.«122507_j4475355922620_1_alg».proof.Proof.Gen.Kernel.Launch
import proofs.«122507_j4475355922620_1_alg».proof.Proof.Gen.Kernel.Points
import proofs.«122507_j4475355922620_1_alg».proof.Proof.Gen.Kernel.Frame
import proofs.«122507_j4475355922620_1_alg».proof.Proof.Gen.KernelIdeal
import proofs.«122507_j4475355922620_1_alg».proof.Proof.Gen.KernelIdeal.Skeleton
import proofs.«122507_j4475355922620_1_alg».proof.Proof.Gen.KernelIdeal.Launch
import proofs.«122507_j4475355922620_1_alg».proof.Proof.Gen.KernelIdeal.Points
import proofs.«122507_j4475355922620_1_alg».proof.Proof.Gen.KernelIdeal.Frame
import proofs.«122507_j4475355922620_1_alg».proof.Proof.Gen.ReferenceIdeal
import proofs.«122507_j4475355922620_1_alg».proof.Proof.Gen.Pre_finite_inputs
import proofs.«122507_j4475355922620_1_alg».proof.Proof.Gen.ReferenceIdeal.Run
import proofs.«122507_j4475355922620_1_alg».proof.Proof.Gen.ReferenceIdeal.Read
import proofs.«122507_j4475355922620_1_alg».proof.Proof.KernelValue
import proofs.«122507_j4475355922620_1_alg».proof.Proof.RefValue
import Idealize.ShloMosaic.Adequacy
import Idealize.ShloMosaic.Init

noncomputable section

namespace Cert.Proof

open Idealize.ShloMosaic Idealize.SL.Sem

/-- The kernel program as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, read, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's two entries: where the body builds `±1` from a sign bit (of the inputs, and of the product of signs)
    the idealization selects `-1` or `1` by `< 0`; each is the rule's statement at the block's shape and format. -/
theorem preserves : Cert.preserves_Kernel_KernelIdeal :=
  ⟨IdealRules.sign_bit.statement Cert.KernelIdeal.S1024x256 .f32, IdealRules.sign_bit.statement Cert.KernelIdeal.S1024x256 .f32⟩

/-- On the extended reals the kernel program's result is the layer's table of the flattened inputs and the prepared
    weights, reshaped (`Cert.KernelIdeal.KValue.run`), and the reference's last stage reshapes the same table of
    arguments that agree (`Cert.ReferenceIdeal.RefValue.stage_eq`): one array. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v35_eq _ _ _).trans ?_
  unfold Cert.ReferenceIdeal.Read.val_main_v35
  rw [Cert.ReferenceIdeal.RefValue.stage_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
